-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192x1 : S_.BroadcastsInDim S8192x1 (![] : Fin 0 → Fin S8192x1.rank)
  reducesTo_S8192x1_S_d0_1 : S8192x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg3 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S1 .f32 := broadcastInDim S1 ![] bcast_S_S1 main_cst_6
  let main_v20 : IVec S1 1 := cmpf .une main_arg3 main_v19
  let main_c_7 : IVec S_ 1 := constantI S_ 1 1#1
  let main_v21 : IVec S_ 1 := (fun x v => Host.reduce IntOp.andi x v reducesTo_S1_S_d0 h_S_) main_v20 main_c_7
  let main_v22 : IVec S_ 1 := andi main_v18 main_v21
  main_v22

def fn {F : FTy → Type} [FloatOps F] (main_arg0 : FVec F S16384x64 .f32) (main_arg1 : FVec F S8192x64 .f32) (main_arg2 : FVec F S8192x1 .f32) (main_arg3 : FVec F S1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg3 main_v13 main_v16
-- ==== Kernel.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S1x1 : Shape := ⟨2, ![1, 1]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S2048x64 : Shape := ⟨2, ![2048, 64]⟩
abbrev S1024x64 : Shape := ⟨2, ![1024, 64]⟩
abbrev S2048x1 : Shape := ⟨2, ![2048, 1]⟩
abbrev S1x1024 : Shape := ⟨2, ![1, 1024]⟩
abbrev S1024x1 : Shape := ⟨2, ![1024, 1]⟩
abbrev S2048x1024 : Shape := ⟨2, ![2048, 1024]⟩

abbrev nBuf : Space → Nat
  | .hbm => 29
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S8192x1, .f32⟩
  | .hbm, ⟨3, _⟩ => ⟨S1, .f32⟩
  | .hbm, ⟨4, _⟩ => ⟨S1x1, .f32⟩
  | .hbm, ⟨5, _⟩ => ⟨S16384x64, .f32⟩
  | .hbm, ⟨6, _⟩ => ⟨S16384x64, .f32⟩
  | .hbm, ⟨7, _⟩ => ⟨S1x1, .f32⟩
  | .hbm, ⟨8, _⟩ => ⟨S8192x64, .f32⟩
  | .hbm, ⟨9, _⟩ => ⟨S8192x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S8192x64, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S1x8192, .f32⟩
  | .hbm, ⟨24, _⟩ => ⟨S1x8192, .f32⟩
  | .hbm, ⟨25, _⟩ => ⟨S16384x64, .bf16⟩
  | .hbm, ⟨26, _⟩ => ⟨S8192x64, .bf16⟩
  | .hbm, ⟨27, _⟩ => ⟨S8192x1, .bf16⟩
  | .hbm, ⟨28, _⟩ => ⟨S16384x1, .f32⟩
  | .local _ .vmem, ⟨0, _⟩ => ⟨S2048x64, .bf16⟩
  | .local _ .vmem, ⟨1, _⟩ => ⟨S2048x64, .bf16⟩
  | .local _ .vmem, ⟨2, _⟩ => ⟨S1024x64, .bf16⟩
  | .local _ .vmem, ⟨3, _⟩ => ⟨S1024x64, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S1024x1, .bf16⟩
  | .local _ .vmem, ⟨9, _⟩ => ⟨S1024x1, .bf16⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S1_S1x1_1 : S1.BroadcastsInDim S1x1 (![1] : Fin 1 → Fin S1x1.rank)
  bcast_S1x1_S16384x64_0_1 : S1x1.BroadcastsInDim S16384x64 (![0, 1] : Fin 2 → Fin S16384x64.rank)
  bcast_S1x1_S8192x64_0_1 : S1x1.BroadcastsInDim S8192x64 (![0, 1] : Fin 2 → Fin S8192x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S8192x64_S8192_d1 : S8192x64.ReducesTo [1] S8192
  bcast_S8192_S8192x1_0 : S8192.BroadcastsInDim S8192x1 (![0] : Fin 1 → Fin S8192x1.rank)
  transposes_S8192x1_S1x8192_1_0 : S8192x1.Transposes [1, 0] S1x8192
  bcast_S_S16384x1 : S_.BroadcastsInDim S16384x1 (![] : Fin 0 → Fin S16384x1.rank)
  bcast_S_S1x8192 : S_.BroadcastsInDim S1x8192 (![] : Fin 0 → Fin S1x8192.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  dot_S2048x64_S1024x64_S2048x1024_1_1_0_0_n_n_wf : DotDims.WF S2048x64 S1024x64 S2048x1024 [1] [1] [0] [0] [] []
  dot_S2048x1024_S1024x1_S2048x1_1_0_0_1_n_n_wf : DotDims.WF S2048x1024 S1024x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .bf16 = 32 ∨ (Rect.block (s := S16384x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .bf16 = 32 ∨ (Rect.block (s := S8192x1) S1024x1.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S16384x1.size a
  hwx0_5 : ∀ i : grid0.Coords, EltTy.bits .f32 = 32 ∨ (Rect.block (s := S16384x1) S2048x1.size (cc0_transform_5 i) (hinb0_5 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

abbrev win0_0 : Pipeline.Window sig grid0 :=
  Pipeline.Window.ofSpec (Memref.whole main_v17) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S8192x64 : Shape := ⟨2, ![8192, 64]⟩
abbrev S8192x1 : Shape := ⟨2, ![8192, 1]⟩
abbrev S1 : Shape := ⟨1, ![1]⟩
abbrev S1x1 : Shape := ⟨2, ![1, 1]⟩
abbrev S_ : Shape := ⟨0, ![]⟩
abbrev S16384 : Shape := ⟨1, ![16384]⟩
abbrev S16384x1 : Shape := ⟨2, ![16384, 1]⟩
abbrev S64x8192 : Shape := ⟨2, ![64, 8192]⟩
abbrev S16384x8192 : Shape := ⟨2, ![16384, 8192]⟩
abbrev S8192 : Shape := ⟨1, ![8192]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S8192x1, .f32⟩
  | .hbm, ⟨3, _⟩ => ⟨S1, .f32⟩
  | .hbm, ⟨4, _⟩ => ⟨S1x1, .f32⟩
  | .hbm, ⟨5, _⟩ => ⟨S16384x64, .f32⟩
  | .hbm, ⟨6, _⟩ => ⟨S16384x64, .f32⟩
  | .hbm, ⟨7, _⟩ => ⟨S1x1, .f32⟩
  | .hbm, ⟨8, _⟩ => ⟨S8192x64, .f32⟩
  | .hbm, ⟨9, _⟩ => ⟨S8192x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S64x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S1x8192, .f32⟩
  | .hbm, ⟨25, _⟩ => ⟨S16384x8192, .f32⟩
  | .hbm, ⟨26, _⟩ => ⟨S16384x8192, .f32⟩
  | .hbm, ⟨27, _⟩ => ⟨S_, .f32⟩
  | .hbm, ⟨28, _⟩ => ⟨S16384x8192, .f32⟩
  | .hbm, ⟨29, _⟩ => ⟨S16384x8192, .f32⟩
  | .hbm, ⟨30, _⟩ => ⟨S_, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S16384x1, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x64_0_1 : S1x1.BroadcastsInDim S16384x64 (![0, 1] : Fin 2 → Fin S16384x64.rank)
  bcast_S1x1_S8192x64_0_1 : S1x1.BroadcastsInDim S8192x64 (![0, 1] : Fin 2 → Fin S8192x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S8192x64_S64x8192_1_0 : S8192x64.Transposes [1, 0] S64x8192
  bcast_S_S16384x8192 : S_.BroadcastsInDim S16384x8192 (![] : Fin 0 → Fin S16384x8192.rank)
  bcast_S16384x1_S16384x8192_0_1 : S16384x1.BroadcastsInDim S16384x8192 (![0, 1] : Fin 2 → Fin S16384x8192.rank)
  reducesTo_S8192x64_S8192_d1 : S8192x64.ReducesTo [1] S8192
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  dot_S16384x64_S64x8192_S16384x8192_1_0_0_1_n_n_wf : DotDims.WF S16384x64 S64x8192 S16384x8192 [1] [0] [0] [1] [] []
  dot_S16384x8192_S8192x1_S16384x1_1_0_0_1_n_n_wf : DotDims.WF S16384x8192 S8192x1 S16384x1 [1] [0] [0] [1] [] []

variable [Facts₀]

def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf
def dot_S16384x8192_S8192x1_S16384x1_1_0_0_1_n_n : DotDims S16384x8192 S8192x1 S16384x1 where
  lhsContracting := [1]
  rhsContracting := [0]
  lhsNonContracting := [0]
  rhsNonContracting := [1]
  lhsBatch := []
  rhsBatch := []
  wf := dot_S16384x8192_S8192x1_S16384x1_1_0_0_1_n_n_wf

class Facts : Prop extends Facts₀ where

variable [Facts]
-- ==== Proof.Pieces.lean ====
/-
  What one grid point of the kernel leaves behind, as values. The body keeps a running column `acc` ([2048, 1]) in a
  scratch buffer: at the first training tile of a test tile it stores the zero column, then at every training tile it
  stores `acc + K · α` for that tile (`k0_pay2`, the body's arithmetic as one term of its six loads), and at the last
  training tile it copies the scratch to the output block. Read back through the whole-buffer stores:

  * after a first tile the scratch holds `k0_pay2 … k0_pay1` (the tile's contribution added to the zero column);
  * after any other tile it holds `k0_pay2 … acc` over what the point before left;
  * at a last tile the output block holds the same column as the scratch.
-/
import proofs.«112491_j1632087572587_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue
open Cert.KernelIdeal Cert.KernelIdeal.Gen
variable {F : FTy → Type} [FloatOps F]

/-- The zero offsets of a rank-2 whole-buffer rectangle. -/
theorem hz : (![0, 0] : Fin 2 → Nat) = fun _ => 0 := funext fun a => by fin_cases a <;> rfl

/-- A tile that is neither first nor last: the scratch ends at this tile's contribution added to what it held. -/
theorem sout_B (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : ¬cond0_1 i) (x0 : Vec F S2048x64 .bf16) (x1 : Vec F S1024x64 .bf16) (x2 : Vec F S2048x1 .f32) (x3 : Vec F S1x1024 .f32) (x4 : Vec F S1024x1 .bf16) (xs0 : Vec F S2048x1 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread, harg6.read_unread, harg8.read_unread, View.ld_unit_zero (S := S2048x64) hz, View.ld_unit_zero (S := S1024x64) hz, View.ld_unit_zero (S := S2048x1) hz, View.ld_unit_zero (S := S1x1024) hz, View.ld_unit_zero (S := S1024x1) hz]

/-- A first tile: the scratch is zeroed, read back, and ends at this tile's contribution added to the zero column. -/
theorem sout_A (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S2048x1 .f32) (harg7 : arg7.IsWhole) (arg8 : Memref sig .tc .vmem S2048x1 .f32) (harg8 : arg8.IsWhole) (hc0 : cond0_0 i) (hc1 : ¬cond0_1 i) (x0 : Vec F S2048x64 .bf16) (x1 : Vec F S1024x64 .bf16) (x2 : Vec F S2048x1 .f32) (x3 : Vec F S1x1024 .f32) (x4 : Vec F S1024x1 .bf16) :
    sout0_A_0 c i arg2 harg2 arg3 harg3 arg4 harg4 arg5 harg5 arg6 harg6 arg7 harg7 arg8 harg8 hc0 hc1 x0 x1 x2 x3 x4 = k0_pay2 x0 x1 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, View.ld_unit_zero (S := S2048x64) hz, View.ld_unit_zero (S := S1024x64) hz, View.ld_unit_zero (S := S2048x1) hz, View.ld_unit_zero (S := S1x1024) hz, View.ld_unit_zero (S := S1024x1) hz]

/-- A last tile, the scratch: as at any later tile. -/
theorem sout_C (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x64 .bf16) (x1 : Vec F S1024x64 .bf16) (x2 : Vec F S2048x1 .f32) (x3 : Vec F S1x1024 .f32) (x4 : Vec F S1024x1 .bf16) (xs0 : Vec F S2048x1 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg8.read_unread, View.ld_unit_zero (S := S2048x64) hz, View.ld_unit_zero (S := S1024x64) hz, View.ld_unit_zero (S := S2048x1) hz, View.ld_unit_zero (S := S1x1024) hz, View.ld_unit_zero (S := S1024x1) hz]

/-- A last tile, the output block: the scratch, read back after its store, copied. -/
theorem out_C (c : Dev nD) (i : grid0.Coords) (arg2 : Memref sig .tc .vmem S2048x64 .bf16) (harg2 : arg2.IsWhole) (arg3 : Memref sig .tc .vmem S1024x64 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x1 .bf16) (harg6 : arg6.IsWhole) (arg7 : Memref sig .tc .vmem S2048x1 .f32) (harg7 : arg7.IsWhole) (arg8 : Memref sig .tc .vmem S2048x1 .f32) (harg8 : arg8.IsWhole) (hc0 : ¬cond0_0 i) (hc1 : cond0_1 i) (x0 : Vec F S2048x64 .bf16) (x1 : Vec F S1024x64 .bf16) (x2 : Vec F S2048x1 .f32) (x3 : Vec F S1x1024 .f32) (x4 : Vec F S1024x1 .bf16) (xs0 : Vec F S2048x1 .f32) :
    out0_C_5 c i arg2 harg2 arg3 harg3 arg4 harg4 arg5 harg5 arg6 harg6 arg7 harg7 arg8 harg8 hc0 hc1 x0 x1 x2 x3 x4 xs0 = k0_pay2 x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S2048x1) _ hz]
  simp only [View.readAt_eq_ld, harg2.read_unread, harg3.read_unread, harg4.read_unread, harg5.read_unread, harg6.read_unread, harg8.read_unread, View.ld_unit_zero (S := S2048x64) hz, View.ld_unit_zero (S := S1024x64) hz, View.ld_unit_zero (S := S2048x1) hz, View.ld_unit_zero (S := S1x1024) hz, View.ld_unit_zero (S := S1024x1) hz]

end Cert.KernelIdeal.KValue
end
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Payload.lean ====
/-
  The body's arithmetic at one row, on the extended reals. With the test tile `x0` ([2048, 64]), the training tile
  `x1` ([1024, 64]), the scaled squared norms `x2` ([2048, 1], of the test rows) and `x3` ([1, 1024], of the training rows),
  the dual weights `x4` ([1024, 1]) and the running column `acc`, row `r` of what the body stores is

    acc r + ∑ n, min (exp ((∑ d, x0 r d * x1 n d + x2 r) + x3 n)) 1 * x4 n :

  the first product contracts both tiles' second axes, the two norms are repeated along the other axis, the exponential
  and the clamp act entry by entry, the changes of float format are the identity, and the second product contracts the
  clamped weights' columns with the rows of `x4`.
-/
import proofs.«112491_j1632087572587_2_alg».proof.Proof.Gen.KernelIdeal.Skeleton
import proofs.«112491_j1632087572587_2_alg».proof.Proof.LibRowDots
import proofs.«112491_j1632087572587_2_alg».proof.Proof.LibRowOps
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem
open Idealize.ShloMosaic.Pipeline (Dat)

open scoped BigOperators

namespace Cert.KernelIdeal.KValue
open Cert.KernelIdeal Cert.KernelIdeal.Gen Idealize.ShloMosaic.ValueIdx

/-- One training tile's contribution to row `r` of a test tile. -/
def tileTerm (x0 : Vec Ideal S2048x64 .bf16) (x1 : Vec Ideal S1024x64 .bf16) (x2 : Vec Ideal S2048x1 .f32)
    (x3 : Vec Ideal S1x1024 .f32) (x4 : Vec Ideal S1024x1 .bf16) (r : Fin 2048) : EReal :=
  ∑ n : Fin 1024, min (Ideal.exp ((∑ d : Fin 64, x0 (ix2 r d) * x1 (ix2 n d) + x2 (ix2 r (0 : Fin 1))) + x3 (ix2 (0 : Fin 1) n)))
    (Ideal.ofBits .f32 0x3F800000#32) * x4 (ix2 n (0 : Fin 1))

/-- The clamped weight the body forms at `(r, n)`. -/
theorem weight_apply (x0 : FVec Ideal S2048x64 .bf16) (x1 : FVec Ideal S1024x64 .bf16) (x2 : FVec Ideal S2048x1 .f32)
    (x3 : FVec Ideal S1x1024 .f32) (r : Fin 2048) (n : Fin 1024) :
    minimumf (exp (addf (addf (matmul (F := Ideal) dot_S2048x64_S1024x64_S2048x1024_1_1_0_0_n_n none x0 x1 (constant S2048x1024 .f32 0x00000000#32))
        (broadcastTo S2048x1024 x2 broadcasts_S2048x1_S2048x1024)) (broadcastTo S2048x1024 x3 broadcasts_S1x1024_S2048x1024)))
      (broadcast S2048x1024 (Scalar.ofBits (F := Ideal) .f32 0x3F800000#32)) (ix2 r n)
    = min (Ideal.exp ((∑ d : Fin 64, x0 (ix2 r d) * x1 (ix2 n d) + x2 (ix2 r (0 : Fin 1))) + x3 (ix2 (0 : Fin 1) n)))
        (Ideal.ofBits .f32 0x3F800000#32) := by
  have e1 := Idealize.ShloMosaic.RowDots.matmul_zero_rows_apply (A := 2048) (K := 64) (B := 1024)
    dot_S2048x64_S1024x64_S2048x1024_1_1_0_0_n_n ⟨dot_S2048x64_S1024x64_S2048x1024_1_1_0_0_n_n_wf, rfl⟩ none x0 x1 r n
  have e2 := Idealize.ShloMosaic.RowOps.broadcastTo_a1_ab_apply (a := 2048) (b := 1024) x2 broadcasts_S2048x1_S2048x1024 r n
  have e3 := broadcastTo_1b_ab_apply (a := 2048) (b := 1024) x3 broadcasts_S1x1024_S2048x1024 r n
  show min (Ideal.exp ((_ + _) + _)) (Ideal.ofBits .f32 0x3F800000#32) = _
  exact congrArg (fun z => min (Ideal.exp z) (Ideal.ofBits .f32 0x3F800000#32)) (congrArg₂ (· + ·) (congrArg₂ (· + ·) e1 e2) e3)

/-- The second product at row `r`: the clamped weights of row `r` against the dual weights. -/
theorem contrib_apply (x0 : FVec Ideal S2048x64 .bf16) (x1 : FVec Ideal S1024x64 .bf16) (x2 : FVec Ideal S2048x1 .f32)
    (x3 : FVec Ideal S1x1024 .f32) (x4 : FVec Ideal S1024x1 .bf16) (r : Fin 2048) :
    matmul (F := Ideal) dot_S2048x1024_S1024x1_S2048x1_1_0_0_1_n_n none
      (truncf .bf16 (minimumf (exp (addf (addf (matmul (F := Ideal) dot_S2048x64_S1024x64_S2048x1024_1_1_0_0_n_n none x0 x1 (constant S2048x1024 .f32 0x00000000#32))
        (broadcastTo S2048x1024 x2 broadcasts_S2048x1_S2048x1024)) (broadcastTo S2048x1024 x3 broadcasts_S1x1024_S2048x1024)))
        (broadcast S2048x1024 (Scalar.ofBits (F := Ideal) .f32 0x3F800000#32))) bitsLt_bf16_f32)
      x4 (constant S2048x1 .f32 0x00000000#32) (ix2 r (0 : Fin 1)) = tileTerm x0 x1 x2 x3 x4 r := by
  refine (Idealize.ShloMosaic.RowOps.matmul_zero_plain_apply (A := 2048) (K := 1024) (B := 1)
    dot_S2048x1024_S1024x1_S2048x1_1_0_0_1_n_n ⟨dot_S2048x1024_S1024x1_S2048x1_1_0_0_1_n_n_wf, rfl⟩ none _ x4 r (0 : Fin 1)).trans ?_
  unfold tileTerm
  refine Finset.sum_congr rfl fun n _ => ?_
  exact congrArg (· * x4 (ix2 n (0 : Fin 1))) (weight_apply x0 x1 x2 x3 r n)

/-- Row `r` of what the body stores into the running column. -/
theorem pay2_apply (x0 : Vec Ideal S2048x64 .bf16) (x1 : Vec Ideal S1024x64 .bf16) (x2 : Vec Ideal S2048x1 .f32)
    (x3 : Vec Ideal S1x1024 .f32) (x4 : Vec Ideal S1024x1 .bf16) (acc : Vec Ideal S2048x1 .f32) (r : Fin 2048) :
    k0_pay2 (F := Ideal) x0 x1 x2 x3 x4 acc (ix2 r (0 : Fin 1)) = acc (ix2 r (0 : Fin 1)) + tileTerm x0 x1 x2 x3 x4 r := by
  unfold k0_pay2
  simp only [shapeCast_self]
  exact congrArg (acc (ix2 r (0 : Fin 1)) + ·) (contrib_apply x0 x1 x2 x3 x4 r)

/-- The zero column a first tile stores. -/
theorem pay1_apply (i : S2048x1.Idx) : k0_pay1 (F := Ideal) i = 0 := by
  unfold k0_pay1
  simp only [shapeCast_self]
  show Ideal.ofBits .f32 0x00000000#32 = 0
  exact Ideal.ofBits_zero_f32

end Cert.KernelIdeal.KValue
end
-- ==== Proof.Accum.lean ====
/-
  The running column over a test tile's eight training tiles. Grid point `n = 8 a + b` handles test tile `a` and
  training tile `b`. With `pointTerm k r` the contribution of point `k` to row `r` (the body's arithmetic over that
  point's five input blocks), the scratch after point `n` holds, at row `r`,

      ∑ s ≤ b, pointTerm (8 a + s) r :

  a first training tile (b = 0) stores its contribution over the zero column, every later one adds its contribution to
  what the point before left — an induction on the point. At a last training tile (b = 7) the output block is the
  same column as the scratch.
-/
import proofs.«112491_j1632087572587_2_alg».proof.Proof.Gen.KernelIdeal.Frame
import proofs.«112491_j1632087572587_2_alg».proof.Proof.Pieces
import proofs.«112491_j1632087572587_2_alg».proof.Proof.Payload

set_option maxRecDepth 16384

noncomputable section

open Idealize.ShloMosaic Idealize.ShloMosaic.TcCoe Idealize.SL.Sem
open Idealize.ShloMosaic.Pipeline (Dat)

open scoped BigOperators

namespace Cert.KernelIdeal.KValue
open Cert.KernelIdeal Cert.KernelIdeal.Gen Idealize.ShloMosaic.ValueIdx

variable (m : (ℓ : Loc nD τ sig) → Buf (Elt Ideal) ℓ)

/-- The contribution of grid point `k` to row `r` of its test tile (zero past the grid). -/
def pointTerm (c : Dev nD) (k : ℕ) (r : Fin 2048) : EReal :=
  if h : k < cfg0.N then
    tileTerm (iblk m c 0 ⟨k, h⟩) (iblk m c 1 ⟨k, h⟩) (iblk m c 2 ⟨k, h⟩) (iblk m c 3 ⟨k, h⟩) (iblk m c 4 ⟨k, h⟩) r
  else 0

theorem pointTerm_of_lt (c : Dev nD) (t : Fin cfg0.N) (r : Fin 2048) :
    pointTerm m c t.val r = tileTerm (iblk m c 0 t) (iblk m c 1 t) (iblk m c 2 t) (iblk m c 3 t) (iblk m c 4 t) r := by
  unfold pointTerm
  rw [dif_pos t.isLt]

/-- After a first training tile the scratch holds that tile's contribution. -/
theorem scratch_first (c : Dev nD) (t : Fin cfg0.N) (h0 : t.val % 8 = 0) (r : Fin 2048) :
    (outsAt0 m c t.val t.isLt).2 (ix2 r (0 : Fin 1)) = pointTerm m c t.val r := by
  have h1 : ¬t.val % 8 = 7 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 r (0 : Fin 1))).trans ?_
  rw [pointTerm_of_lt]
  refine (pay2_apply (iblk m c 0 t) (iblk m c 1 t) (iblk m c 2 t) (iblk m c 3 t) (iblk m c 4 t) (k0_pay1 (F := Ideal)) r).trans ?_
  rw [pay1_apply, zero_add]

/-- After any later training tile the scratch holds what the point before left plus this tile's contribution. -/
theorem scratch_next (c : Dev nD) (t : Fin cfg0.N) (h0 : ¬t.val % 8 = 0) (r : Fin 2048) :
    (outsAt0 m c t.val t.isLt).2 (ix2 r (0 : Fin 1))
      = (outsAt0 m c (t.val - 1) (Nat.lt_of_le_of_lt (Nat.sub_le _ _) t.isLt)).2 (ix2 r (0 : Fin 1)) + pointTerm m c t.val r := by
  by_cases h1 : t.val % 8 = 7
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 r (0 : Fin 1))).trans ?_
    rw [pointTerm_of_lt]
    exact pay2_apply (iblk m c 0 t) (iblk m c 1 t) (iblk m c 2 t) (iblk m c 3 t) (iblk m c 4 t) (outsAt0 m c (t.val - 1) (Nat.lt_of_le_of_lt (Nat.sub_le _ _) t.isLt)).2 r
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 r (0 : Fin 1))).trans ?_
    rw [pointTerm_of_lt]
    exact pay2_apply (iblk m c 0 t) (iblk m c 1 t) (iblk m c 2 t) (iblk m c 3 t) (iblk m c 4 t) (outsAt0 m c (t.val - 1) (Nat.lt_of_le_of_lt (Nat.sub_le _ _) t.isLt)).2 r

/-- At a last training tile the output block is the scratch's column. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).symm

/-- The scratch after point `n`: the contributions of its test tile's training tiles up to `n`'s. -/
theorem scratch_eq (c : Dev nD) : ∀ (n : ℕ) (hn : n < cfg0.N) (r : Fin 2048),
    (outsAt0 m c n hn).2 (ix2 r (0 : Fin 1)) = ∑ s ∈ Finset.range (n % 8 + 1), pointTerm m c (8 * (n / 8) + s) r
  | 0, hn, r => by
    rw [scratch_first m c ⟨0, hn⟩ rfl r]
    show pointTerm m c 0 r = ∑ s ∈ Finset.range 1, pointTerm m c (8 * (0 / 8) + s) r
    rw [Finset.sum_range_one]
  | n + 1, hn, r => by
    by_cases h0 : (n + 1) % 8 = 0
    · rw [scratch_first m c ⟨n + 1, hn⟩ h0 r]
      show pointTerm m c (n + 1) r = _
      rw [show (n + 1) % 8 + 1 = 1 from by omega, Finset.sum_range_one,
        show 8 * ((n + 1) / 8) + 0 = n + 1 from by omega]
    · rw [scratch_next m c ⟨n + 1, hn⟩ h0 r]
      show (outsAt0 m c n _).2 (ix2 r (0 : Fin 1)) + pointTerm m c (n + 1) r = _
      rw [scratch_eq c n (Nat.lt_of_succ_lt hn) r, show (n + 1) % 8 = n % 8 + 1 from by omega,
        show (n + 1) / 8 = n / 8 from by omega, Finset.sum_range_succ (fun s => pointTerm m c (8 * (n / 8) + s) r) (n % 8 + 1),
        show 8 * (n / 8) + (n % 8 + 1) = n + 1 from by omega]

end Cert.KernelIdeal.KValue
end
-- ==== Proof.Blocks.lean ====
/-
  From blocks to arrays. Grid point `t = 8 a + b` stages rows `2048 a …` of the test-side arrays (the scaled test rows
  and their scaled squared norms) and rows `1024 b …` of the training-side arrays (the scaled training rows, their scaled
  squared norms, the dual weights): a block's entry `(y₀, y₁)` is the array's entry at block index × block size + y on
  each axis.
-/
import proofs.«112491_j1632087572587_2_alg».proof.Proof.Gen.KernelIdeal.Frame
import proofs.«112491_j1632087572587_2_alg».proof.Proof.Accum
import Idealize.ShloMosaic.Lib.Pipeline.Value

set_option maxRecDepth 16384

noncomputable section

open Idealize.ShloMosaic Idealize.ShloMosaic.TcCoe Idealize.SL.Sem
open Idealize.ShloMosaic.Pipeline (Dat)

open scoped BigOperators

namespace Cert.KernelIdeal.KValue
open Cert.KernelIdeal Cert.KernelIdeal.Gen Idealize.ShloMosaic.ValueIdx

variable (m : (ℓ : Loc nD τ sig) → Buf (Elt Ideal) ℓ)

/-- The printed index maps over the grid: the test-side windows follow `t / 8`, the training-side ones `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val % 8 ∧ win0_4.index t (1 : Fin 2) = 0
    ∧ win0_5.index t (0 : Fin 2) = t.val / 8 ∧ win0_5.index t (1 : Fin 2) = 0 :=
  (by decide +kernel : ∀ t : Fin grid0.N, _)

/-- Row `r` of test tile `a`. -/
def rowX (a : ℕ) (ha : a < 8) (r : Fin 2048) : Fin 16384 := ⟨2048 * a + r.val, by have := r.isLt; omega⟩
/-- Row `n` of training tile `b`. -/
def rowT (b : ℕ) (hb : b < 8) (n : Fin 1024) : Fin 8192 := ⟨1024 * b + n.val, by have := n.isLt; omega⟩

theorem div_lt (t : Fin cfg0.N) : t.val / 8 < 8 := by
  have h : t.val < 64 := lt_of_lt_of_eq t.isLt (show cfg0.N = 64 from N_0)
  omega
theorem mod_lt (t : Fin cfg0.N) : t.val % 8 < 8 := Nat.mod_lt _ (by decide)

/-- The scaled test rows, the scaled training rows, the scaled squared norms of both and the dual weights, as the
    region finds them. -/
abbrev gX (c : Dev nD) : FVec Ideal S16384x64 .bf16 := V m c main_v17
abbrev gT (c : Dev nD) : FVec Ideal S8192x64 .bf16 := V m c main_v18
abbrev gNX (c : Dev nD) : FVec Ideal S16384x1 .f32 := V m c main_v14
abbrev gNT (c : Dev nD) : FVec Ideal S1x8192 .f32 := V m c main_v16
abbrev gA (c : Dev nD) : FVec Ideal S8192x1 .bf16 := V m c main_v19

theorem blk0 (c : Dev nD) (t : Fin cfg0.N) (r : Fin 2048) (d : Fin 64) :
    (iblk m c 0 t : Vec Ideal S2048x64 .bf16) (ix2 r d) = gX m c (ix2 (rowX (t.val / 8) (div_lt t) r) d) := by
  obtain ⟨e00, e01, e10, e11, e20, e21, e30, e31, e40, e41, e50, e51⟩ := idx_facts t
  show V m c main_v17 (((cfg0.win 0).blk t).view.emb (ix2 r d)) = V m c main_v17 (ix2 (rowX (t.val / 8) (div_lt t) r) d)
  have h : ((cfg0.win 0).blk t).view.emb (ix2 r d) = ix2 (rowX (t.val / 8) (div_lt t) r) d := by
    funext a; apply Fin.ext
    match a with
    | ⟨0, _⟩ => show win0_0.index t (0 : Fin 2) * 2048 + 1 * r.val = 2048 * (t.val / 8) + r.val; omega
    | ⟨1, _⟩ => show win0_0.index t (1 : Fin 2) * 64 + 1 * d.val = d.val; omega
  rw [h]

theorem blk1 (c : Dev nD) (t : Fin cfg0.N) (n : Fin 1024) (d : Fin 64) :
    (iblk m c 1 t : Vec Ideal S1024x64 .bf16) (ix2 n d) = gT m c (ix2 (rowT (t.val % 8) (mod_lt t) n) d) := by
  obtain ⟨e00, e01, e10, e11, e20, e21, e30, e31, e40, e41, e50, e51⟩ := idx_facts t
  show V m c main_v18 (((cfg0.win 1).blk t).view.emb (ix2 n d)) = V m c main_v18 (ix2 (rowT (t.val % 8) (mod_lt t) n) d)
  have h : ((cfg0.win 1).blk t).view.emb (ix2 n d) = ix2 (rowT (t.val % 8) (mod_lt t) n) d := by
    funext a; apply Fin.ext
    match a with
    | ⟨0, _⟩ => show win0_1.index t (0 : Fin 2) * 1024 + 1 * n.val = 1024 * (t.val % 8) + n.val; omega
    | ⟨1, _⟩ => show win0_1.index t (1 : Fin 2) * 64 + 1 * d.val = d.val; omega
  rw [h]

theorem blk2 (c : Dev nD) (t : Fin cfg0.N) (r : Fin 2048) (q : Fin 1) :
    (iblk m c 2 t : Vec Ideal S2048x1 .f32) (ix2 r q) = gNX m c (ix2 (rowX (t.val / 8) (div_lt t) r) q) := by
  obtain ⟨e00, e01, e10, e11, e20, e21, e30, e31, e40, e41, e50, e51⟩ := idx_facts t
  show V m c main_v14 (((cfg0.win 2).blk t).view.emb (ix2 r q)) = V m c main_v14 (ix2 (rowX (t.val / 8) (div_lt t) r) q)
  have h : ((cfg0.win 2).blk t).view.emb (ix2 r q) = ix2 (rowX (t.val / 8) (div_lt t) r) q := by
    funext a; apply Fin.ext
    match a with
    | ⟨0, _⟩ => show win0_2.index t (0 : Fin 2) * 2048 + 1 * r.val = 2048 * (t.val / 8) + r.val; omega
    | ⟨1, _⟩ => show win0_2.index t (1 : Fin 2) * 1 + 1 * q.val = q.val; omega
  rw [h]

theorem blk3 (c : Dev nD) (t : Fin cfg0.N) (q : Fin 1) (n : Fin 1024) :
    (iblk m c 3 t : Vec Ideal S1x1024 .f32) (ix2 q n) = gNT m c (ix2 q (rowT (t.val % 8) (mod_lt t) n)) := by
  obtain ⟨e00, e01, e10, e11, e20, e21, e30, e31, e40, e41, e50, e51⟩ := idx_facts t
  show V m c main_v16 (((cfg0.win 3).blk t).view.emb (ix2 q n)) = V m c main_v16 (ix2 q (rowT (t.val % 8) (mod_lt t) n))
  have h : ((cfg0.win 3).blk t).view.emb (ix2 q n) = ix2 q (rowT (t.val % 8) (mod_lt t) n) := by
    funext a; apply Fin.ext
    match a with
    | ⟨0, _⟩ => show win0_3.index t (0 : Fin 2) * 1 + 1 * q.val = q.val; omega
    | ⟨1, _⟩ => show win0_3.index t (1 : Fin 2) * 1024 + 1 * n.val = 1024 * (t.val % 8) + n.val; omega
  rw [h]

theorem blk4 (c : Dev nD) (t : Fin cfg0.N) (n : Fin 1024) (q : Fin 1) :
    (iblk m c 4 t : Vec Ideal S1024x1 .bf16) (ix2 n q) = gA m c (ix2 (rowT (t.val % 8) (mod_lt t) n) q) := by
  obtain ⟨e00, e01, e10, e11, e20, e21, e30, e31, e40, e41, e50, e51⟩ := idx_facts t
  show V m c main_v19 (((cfg0.win 4).blk t).view.emb (ix2 n q)) = V m c main_v19 (ix2 (rowT (t.val % 8) (mod_lt t) n) q)
  have h : ((cfg0.win 4).blk t).view.emb (ix2 n q) = ix2 (rowT (t.val % 8) (mod_lt t) n) q := by
    funext a; apply Fin.ext
    match a with
    | ⟨0, _⟩ => show win0_4.index t (0 : Fin 2) * 1024 + 1 * n.val = 1024 * (t.val % 8) + n.val; omega
    | ⟨1, _⟩ => show win0_4.index t (1 : Fin 2) * 1 + 1 * q.val = q.val; omega
  rw [h]

/-- The output block's entry `(r, q)` at point `t` is the output array's entry at row `2048 (t / 8) + r`. -/
theorem emb5 (t : Fin cfg0.N) (r : Fin 2048) (q : Fin 1) :
    ((cfg0.win 5).blk t).view.emb (ix2 r q) = (ix2 (rowX (t.val / 8) (div_lt t) r) q : S16384x1.Idx) := by
  obtain ⟨e00, e01, e10, e11, e20, e21, e30, e31, e40, e41, e50, e51⟩ := idx_facts t
  funext a; apply Fin.ext
  match a with
  | ⟨0, _⟩ => show win0_5.index t (0 : Fin 2) * 2048 + 1 * r.val = 2048 * (t.val / 8) + r.val; omega
  | ⟨1, _⟩ => show win0_5.index t (1 : Fin 2) * 1 + 1 * q.val = q.val; omega

end Cert.KernelIdeal.KValue
end
-- ==== Proof.LibTileSum.lean ====
/-
  Regrouping a finite sum over `Fin (K * N)` into `K` consecutive tiles of `N` terms each.

  Position `m < K * N` is written `N * s + j` with tile `s < K` and offset `j < N`; a sum over all positions is then
  the sum over the tiles of each tile's own sum. Only commutativity and associativity of the addition are used, so
  the lemmas hold in any additive commutative monoid.
-/
import Mathlib.Data.Fintype.BigOperators
import Mathlib.Logic.Equiv.Fin.Basic

namespace Cert.Lib

open Finset

variable {β : Type*} [AddCommMonoid β]

/-- Offset `j < N` inside tile `s < K` is a position below `K * N`. -/
theorem tile_index_lt {K N : ℕ} (s : Fin K) (j : Fin N) : N * s.val + j.val < K * N :=
  calc N * s.val + j.val < N * s.val + N := Nat.add_lt_add_left j.isLt _
    _ = N * (s.val + 1) := (Nat.mul_succ _ _).symm
    _ ≤ N * K := Nat.mul_le_mul_left _ s.isLt
    _ = K * N := Nat.mul_comm _ _

/-- A sum over `K * N` positions is the sum over the `K` tiles of the sum over each tile's `N` offsets:
    `(s, j) ↦ N * s + j` is a bijection from pairs (tile, offset) onto positions. -/
theorem sum_fin_mul_eq_sum_tiles (K N : ℕ) (f : Fin (K * N) → β) :
    ∑ m : Fin (K * N), f m = ∑ s : Fin K, ∑ j : Fin N, f ⟨N * s.val + j.val, tile_index_lt s j⟩ := by
  rw [← (finProdFinEquiv : Fin K × Fin N ≃ Fin (K * N)).sum_comp f, Fintype.sum_prod_type]
  refine Finset.sum_congr rfl fun s _ => Finset.sum_congr rfl fun j _ => congrArg f (Fin.ext ?_)
  show j.val + N * s.val = N * s.val + j.val
  exact Nat.add_comm _ _

/-- The same with the tiles counted by `Finset.range K`: if `T s` is tile `s`'s own sum for every `s < K`, the sum
    over all positions is `∑ s ∈ range K, T s`. -/
theorem sum_fin_mul_eq_sum_range_of_tiles (K N : ℕ) (f : Fin (K * N) → β) (T : ℕ → β)
    (hT : ∀ s : Fin K, T s.val = ∑ j : Fin N, f ⟨N * s.val + j.val, tile_index_lt s j⟩) :
    ∑ m : Fin (K * N), f m = ∑ s ∈ Finset.range K, T s := by
  rw [sum_fin_mul_eq_sum_tiles K N f, ← Fin.sum_univ_eq_sum_range T K]
  exact Finset.sum_congr rfl fun s _ => (hT s).symm

/-- The same for a summand given as a function `g` of the position as a natural number: the sum over all positions
    is the sum over `s ∈ range K` of `∑ j : Fin N, g (N * s + j)`. -/
theorem sum_fin_mul_eq_sum_range (K N : ℕ) (f : Fin (K * N) → β) (g : ℕ → β) (hfg : ∀ m : Fin (K * N), f m = g m.val) :
    ∑ m : Fin (K * N), f m = ∑ s ∈ Finset.range K, ∑ j : Fin N, g (N * s + j.val) :=
  sum_fin_mul_eq_sum_range_of_tiles K N f (fun s => ∑ j : Fin N, g (N * s + j.val))
    fun s => Finset.sum_congr rfl fun j _ => (hfg ⟨N * s.val + j.val, tile_index_lt s j⟩).symm

/-! ## Four tiles of 1024 in 4096 positions

The three lemmas at `K = 4`, `N = 1024`, with the index type spelt `Fin 4096`. -/

/-- Offset `j < 1024` inside tile `s < 4` is a position below 4096. -/
theorem tile_index_lt_4096 (s : Fin 4) (j : Fin 1024) : 1024 * s.val + j.val < 4096 :=
  tile_index_lt (K := 4) (N := 1024) s j

/-- A sum over 4096 positions is the sum over four tiles of the sum over each tile's 1024 offsets. -/
theorem sum_fin4096_eq_sum_tiles (f : Fin 4096 → β) :
    ∑ m : Fin 4096, f m = ∑ s : Fin 4, ∑ j : Fin 1024, f ⟨1024 * s.val + j.val, tile_index_lt_4096 s j⟩ :=
  sum_fin_mul_eq_sum_tiles 4 1024 f

/-- The same with the four tiles counted by `Finset.range 4`, each tile's sum given as `T s`. -/
theorem sum_fin4096_eq_sum_range_of_tiles (f : Fin 4096 → β) (T : ℕ → β)
    (hT : ∀ s : Fin 4, T s.val = ∑ j : Fin 1024, f ⟨1024 * s.val + j.val, tile_index_lt_4096 s j⟩) :
    ∑ m : Fin 4096, f m = ∑ s ∈ Finset.range 4, T s :=
  sum_fin_mul_eq_sum_range_of_tiles 4 1024 f T hT

/-- The same for a summand given as a function `g` of the position as a natural number. -/
theorem sum_fin4096_eq_sum_range (f : Fin 4096 → β) (g : ℕ → β) (hfg : ∀ m : Fin 4096, f m = g m.val) :
    ∑ m : Fin 4096, f m = ∑ s ∈ Finset.range 4, ∑ j : Fin 1024, g (1024 * s + j.val) :=
  sum_fin_mul_eq_sum_range 4 1024 f g hfg

end Cert.Lib
-- ==== Proof.Final.lean ====
/-
  The output array after the run. Test tile `a`'s eight grid points leave, in the scratch and — at the eighth — in the
  output block, the column whose row `r` is the sum over the eight training tiles `s` and the 1024 rows `n` of each of

      w (2048 a + r) (1024 s + n) · α (1024 s + n),

  `w p j = min (exp ((∑ d, X p d · T j d + NX p) + NT j)) 1` over the arrays the region finds. A sum over 8 tiles of
  1024 consecutive rows is the sum over all 8192 training rows; the eighth points' blocks tile the output array; so
  the array ends holding `p ↦ ∑ j, w p j · α j`.
-/
import proofs.«112491_j1632087572587_2_alg».proof.Proof.Gen.KernelIdeal.Value
import proofs.«112491_j1632087572587_2_alg».proof.Proof.Blocks
import proofs.«112491_j1632087572587_2_alg».proof.Proof.LibTileSum

set_option maxRecDepth 16384

noncomputable section

open Idealize.ShloMosaic Idealize.ShloMosaic.TcCoe Idealize.SL.Sem
open Idealize.ShloMosaic.Pipeline (Dat)

open scoped BigOperators

namespace Cert.KernelIdeal.KValue
open Cert.KernelIdeal Cert.KernelIdeal.Gen Idealize.ShloMosaic.ValueIdx

variable (m : (ℓ : Loc nD τ sig) → Buf (Elt Ideal) ℓ) (ρ : Dev nD → PrngReg)

/-- The clamped weight of test row `p` against training row `j`, over the arrays the region finds. -/
def gW (X : FVec Ideal S16384x64 .bf16) (T : FVec Ideal S8192x64 .bf16) (NX : FVec Ideal S16384x1 .f32)
    (NT : FVec Ideal S1x8192 .f32) (p : Fin 16384) (j : Fin 8192) : EReal :=
  min (Ideal.exp ((∑ d : Fin 64, X (ix2 p d) * T (ix2 j d) + NX (ix2 p (0 : Fin 1))) + NT (ix2 (0 : Fin 1) j)))
    (Ideal.ofBits .f32 0x3F800000#32)

/-- The output array as one function of those arrays. -/
def gOut (X : FVec Ideal S16384x64 .bf16) (T : FVec Ideal S8192x64 .bf16) (NX : FVec Ideal S16384x1 .f32)
    (NT : FVec Ideal S1x8192 .f32) (A : FVec Ideal S8192x1 .bf16) : FVec Ideal S16384x1 .f32 :=
  fun i => ∑ j : Fin 8192, gW X T NX NT (i 0) j * A (ix2 j (0 : Fin 1))

/-- One term of that sum, by row numbers (zero outside the arrays). -/
def gTerm (X : FVec Ideal S16384x64 .bf16) (T : FVec Ideal S8192x64 .bf16) (NX : FVec Ideal S16384x1 .f32)
    (NT : FVec Ideal S1x8192 .f32) (A : FVec Ideal S8192x1 .bf16) (P k : ℕ) : EReal :=
  if h : P < 16384 ∧ k < 8192 then gW X T NX NT ⟨P, h.1⟩ ⟨k, h.2⟩ * A (ix2 (⟨k, h.2⟩ : Fin 8192) (0 : Fin 1)) else 0

/-- A grid point's contribution to row `r`: the terms of its test row against its training tile's 1024 rows. -/
theorem pointTerm_eq (c : Dev nD) (t : Fin cfg0.N) (r : Fin 2048) :
    pointTerm m c t.val r
      = ∑ n : Fin 1024, gTerm (gX m c) (gT m c) (gNX m c) (gNT m c) (gA m c) (2048 * (t.val / 8) + r.val) (1024 * (t.val % 8) + n.val) := by
  rw [pointTerm_of_lt]
  unfold tileTerm
  refine Finset.sum_congr rfl fun n _ => ?_
  have hP : 2048 * (t.val / 8) + r.val < 16384 := (rowX (t.val / 8) (div_lt t) r).isLt
  have hk : 1024 * (t.val % 8) + n.val < 8192 := (rowT (t.val % 8) (mod_lt t) n).isLt
  unfold gTerm
  rw [dif_pos ⟨hP, hk⟩]
  simp only [blk0 m c t, blk1 m c t, blk2 m c t, blk3 m c t, blk4 m c t]
  rfl

/-- The eight contributions of a test tile, regrouped: the sum over all training rows. -/
theorem tile_sum (X : FVec Ideal S16384x64 .bf16) (T : FVec Ideal S8192x64 .bf16) (NX : FVec Ideal S16384x1 .f32)
    (NT : FVec Ideal S1x8192 .f32) (A : FVec Ideal S8192x1 .bf16) (P : ℕ) (hP : P < 16384) :
    ∑ s ∈ Finset.range 8, ∑ n : Fin 1024, gTerm X T NX NT A P (1024 * s + n.val)
      = ∑ j : Fin 8192, gW X T NX NT ⟨P, hP⟩ j * A (ix2 j (0 : Fin 1)) :=
  (Cert.Lib.sum_fin_mul_eq_sum_range 8 1024 (fun j : Fin 8192 => gW X T NX NT ⟨P, hP⟩ j * A (ix2 j (0 : Fin 1)))
    (gTerm X T NX NT A P) (fun j => by unfold gTerm; rw [dif_pos ⟨hP, j.isLt⟩])).symm

/-- What a last training tile writes back is its block of the one whole-array function. -/
theorem flushed_eq (c : Dev nD) (t : Fin cfg0.N) (hf : (cfg0.win 5).flush t = true) :
    (dats m 0 c).flushed 5 t = ((cfg0.win 5).blk t).view.read (Elt Ideal) (gOut (gX m c) (gT m c) (gNX m c) (gNT m c) (gA m c)) := by
  have h7 : t.val % 8 = 7 := (flush0_5 t).mp hf
  rw [Cert.KernelIdeal.Value.flushed5]
  funext j
  obtain ⟨r, q, rfl⟩ : ∃ (r : Fin 2048) (q : Fin 1), j = ix2 r q := ⟨j 0, j 1, eq_ix2 j⟩
  obtain rfl : q = 0 := Subsingleton.elim _ _
  show (outsAt0 m c t.val t.isLt).1 (ix2 r (0 : Fin 1)) = (gOut (gX m c) (gT m c) (gNX m c) (gNT m c) (gA m c)) (((cfg0.win 5).blk t).view.emb (ix2 r (0 : Fin 1)))
  rw [out_last m c t h7, scratch_eq m c t.val t.isLt r, emb5 t r 0, h7]
  have hP : 2048 * (t.val / 8) + r.val < 16384 := (rowX (t.val / 8) (div_lt t) r).isLt
  have hN : t.val < 64 := lt_of_lt_of_eq t.isLt (show cfg0.N = 64 from N_0)
  refine Eq.trans ?_ (tile_sum (gX m c) (gT m c) (gNX m c) (gNT m c) (gA m c) (2048 * (t.val / 8) + r.val) hP)
  refine Finset.sum_congr rfl fun s hs => ?_
  have hs8 : s < 8 := Finset.mem_range.mp hs
  have hlt : 8 * (t.val / 8) + s < cfg0.N := lt_of_lt_of_eq (show 8 * (t.val / 8) + s < 64 by omega) (show (64 : ℕ) = cfg0.N from N_0.symm)
  rw [pointTerm_eq m c ⟨8 * (t.val / 8) + s, hlt⟩ r]
  show ∑ n : Fin 1024, gTerm _ _ _ _ _ (2048 * ((8 * (t.val / 8) + s) / 8) + r.val) (1024 * ((8 * (t.val / 8) + s) % 8) + n.val) = _
  rw [show (8 * (t.val / 8) + s) / 8 = t.val / 8 from by omega, show (8 * (t.val / 8) + s) % 8 = s from by omega]

/-- An index of the output array is in point `t`'s block iff each coordinate is in the block's range on its axis. -/
theorem mem_blk5 (t : Fin cfg0.N) (i : S16384x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v20).slice (win0_5.rect t)).set ↔ _
  rw [View.set_slice_whole, Rect.mem_set_unit]
  exact Iff.rfl

/-- Row `p` of the output lies in the block written back at the last training tile of test tile `p / 2048`. -/
theorem cover5 (i : S16384x1.Idx) : ∃ t : Fin cfg0.N, (cfg0.win 5).flush t = true ∧ i ∈ ((cfg0.win 5).blk t).view.set := by
  have hi0 : (i 0).val < 16384 := (i 0).isLt
  have hi1 : (i 1).val < 1 := (i 1).isLt
  have hlt : 8 * ((i 0).val / 2048) + 7 < cfg0.N := lt_of_lt_of_eq (show 8 * ((i 0).val / 2048) + 7 < 64 by omega) (show (64 : ℕ) = cfg0.N from N_0.symm)
  refine ⟨⟨8 * ((i 0).val / 2048) + 7, hlt⟩, (flush0_5 _).mpr (by show (8 * ((i 0).val / 2048) + 7) % 8 = 7; omega), ?_⟩
  rw [mem_blk5]
  obtain ⟨e00, e01, e10, e11, e20, e21, e30, e31, e40, e41, e50, e51⟩ := idx_facts ⟨8 * ((i 0).val / 2048) + 7, hlt⟩
  have e50' : win0_5.index ⟨8 * ((i 0).val / 2048) + 7, hlt⟩ (0 : Fin 2) = (i 0).val / 2048 := by
    rw [e50]; show (8 * ((i 0).val / 2048) + 7) / 8 = _; omega
  intro a
  match a with
  | ⟨0, _⟩ => show win0_5.index _ (0 : Fin 2) * 2048 ≤ (i 0).val ∧ (i 0).val < win0_5.index _ (0 : Fin 2) * 2048 + 2048; rw [e50']; omega
  | ⟨1, _⟩ => show win0_5.index _ (1 : Fin 2) * 1 ≤ (i 1).val ∧ (i 1).val < win0_5.index _ (1 : Fin 2) * 1 + 1; rw [e51]; omega

/-- The output array after the run. -/
theorem final5 (c : Dev nD) : (dats m 0 c).arrAt 5 cfg0.N = (gOut (gX m c) (gT m c) (gNX m c) (gNT m c) (gA m c)) :=
  (dats m 0 c).arrAt_eq_of_cover 5 (gOut (gX m c) (gT m c) (gNX m c) (gNT m c) (gA m c)) (flushed_eq m c) cover5

/-- The run, read: the output array at that function, the arguments unchanged. -/
theorem run : θ_run defs (onTc (τ := τ) (main (F := Ideal))) ⟨m, fun _ => 0, ρ⟩ fun r => ∀ c : Dev nD,
      r.2.mem ((c : Thread nD τ).loc main_v20) = (gOut (gX m c) (gT m c) (gNX m c) (gNT m c) (gA m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2⟩) (Cert.KernelIdeal.Value.run_blocks m ρ)

end Cert.KernelIdeal.KValue
end
-- ==== Proof.LibHostRows.lean ====
/-
  The host's row sums at the ideal values (floats are extended reals), read at an index given by coordinates, for any
  extents:

  * a rank-2 array summed along its rows by the host's reduction with an add body, `[A, B] → [A]`, read at `p`, is the
    initial value plus the sum over `k` of the entry at `(p, k)`;
  * a vector kept as a one-column matrix by a broadcast into the first axis, `[A] → [A, 1]`, reads at `(p, q)` the
    vector at `p`, whatever the unit coordinate `q`.
-/
import Idealize.ShloMosaic.PureOps.Ideal
import Idealize.ShloMosaic.PureOps.Ideal.Laws
import Idealize.ShloMosaic.Lib.ValueIdx
import Idealize.ShloMosaic.Lib.Pipeline.Value
import proofs.«112491_j1632087572587_2_alg».proof.Proof.LibRowDots

noncomputable section

open scoped BigOperators

namespace Idealize.ShloMosaic.HostRows

open Idealize.ShloMosaic Idealize.ShloMosaic.ValueIdx

/-- The host's sum along the rows, read at `p`: the initial value plus the sum of row `p`. -/
theorem hostRowSum_apply {A B : Nat} {φ : FTy} {u : Shape} (x : FVec Ideal (⟨2, ![A, B]⟩ : Shape) φ) (init : u.Idx → Ideal φ)
    (h' : (⟨2, ![A, B]⟩ : Shape).ReducesTo [1] (⟨1, ![A]⟩ : Shape)) (h : (⟨2, ![A, B]⟩ : Shape).Reduces [1] (⟨1, ![A]⟩ : Shape))
    (hu : 0 < u.numel) (p : Fin A) :
    Host.reduceAdd x init h' hu (ix1 p) = init (Shape.Idx.first hu) + ∑ k : Fin B, x (ix2 p k) := by
  simp only [Host.reduceAdd, Ideal.hostReduceAdd_def]
  rw [Ideal.hostReduceAdd_single h' h]
  exact congrArg (_ + ·) (Finset.sum_congr rfl fun k _ => congrArg x (RowDots.lift_row h p k))

variable {α : Type}

/-- A vector broadcast into the first axis of a one-column matrix reads, at `(p, q)`, the vector at `p`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (p : Fin a) (q : Fin 1) :
    broadcastInDim ⟨2, ![a, 1]⟩ ![0] h x (ix2 p q) = x (ix1 p) := by
  refine broadcastInDim_apply ![0] h x (ix2 p q) (ix1 p) fun d => ?_
  match d with
  | ⟨0, _⟩ =>
    show p.val = if a = 1 then 0 else p.val
    split
    · have := p.isLt; omega
    · rfl

end Idealize.ShloMosaic.HostRows

end
-- ==== Proof.Spec.lean ====
/-
  Kernel ridge regression with a radial kernel, as one function of the scaled test rows `x` ([16384, 64]), the scaled
  training rows `t` ([8192, 64]) and the dual weights `a` ([8192, 1]), on the extended reals:

    out p = ∑ j, w p j * a j,      w p j = exp (-½ ‖x p - t j‖²).

  Two spellings of the weight are stated. With n(x p) = ∑ d, x p d ², n(t j) likewise and c p j = ∑ d, x p d * t j d:
  the first clamps the exponential,   min (exp ((c + -½ n(x p)) + -½ n(t j))) 1,
  the second clamps the squared distance,  exp (-½ * max ((n(x p) - 2 c) + n(t j)) 0).
  On real entries they agree: (c - ½ n(x) - ½ n(t)) = -½ (n(x) - 2c + n(t)), and exp (min u 0) = min (exp u) 1.
-/
import Idealize.ShloMosaic.PureOps.Ideal
import Idealize.ShloMosaic.PureOps.Ideal.Laws
import Idealize.ShloMosaic.Lib.ValueIdx

noncomputable section

open scoped BigOperators

namespace Cert.Krr

open Idealize.ShloMosaic Idealize.ShloMosaic.ValueIdx

abbrev SX : Shape := ⟨2, ![16384, 64]⟩
abbrev ST : Shape := ⟨2, ![8192, 64]⟩
abbrev SA : Shape := ⟨2, ![8192, 1]⟩
abbrev SO : Shape := ⟨2, ![16384, 1]⟩

/-- The float -0.5. -/
def negHalf : EReal := Ideal.ofBits .f32 0xBF000000#32
/-- The float 2.0. -/
def two : EReal := Ideal.ofBits .f32 0x40000000#32
/-- The float 1.0. -/
def one : EReal := Ideal.ofBits .f32 0x3F800000#32

/-- The squared norm of test row `p`. -/
def normX (x : SX.Idx → EReal) (p : Fin 16384) : EReal := ∑ d : Fin 64, x (ix2 p d) * x (ix2 p d)
/-- The squared norm of training row `j`. -/
def normT (t : ST.Idx → EReal) (j : Fin 8192) : EReal := ∑ d : Fin 64, t (ix2 j d) * t (ix2 j d)
/-- The inner product of test row `p` and training row `j`. -/
def cross (x : SX.Idx → EReal) (t : ST.Idx → EReal) (p : Fin 16384) (j : Fin 8192) : EReal :=
  ∑ d : Fin 64, x (ix2 p d) * t (ix2 j d)

/-- The weight with the exponential clamped at 1. -/
def wK (x : SX.Idx → EReal) (t : ST.Idx → EReal) (p : Fin 16384) (j : Fin 8192) : EReal :=
  min (Ideal.exp ((cross x t p j + negHalf * normX x p) + negHalf * normT t j)) one
/-- The weight with the squared distance clamped at 0. -/
def wR (x : SX.Idx → EReal) (t : ST.Idx → EReal) (p : Fin 16384) (j : Fin 8192) : EReal :=
  Ideal.exp (negHalf * max ((normX x p - two * cross x t p j) + normT t j) 0)

/-- The regression's value at test row `i 0`, over the weights with the exponential clamped. -/
def outK (x : SX.Idx → EReal) (t : ST.Idx → EReal) (a : SA.Idx → EReal) : SO.Idx → EReal :=
  fun i => ∑ j : Fin 8192, wK x t (i 0) j * a (ix2 j (0 : Fin 1))
/-- The same over the weights with the squared distance clamped. -/
def outR (x : SX.Idx → EReal) (t : ST.Idx → EReal) (a : SA.Idx → EReal) : SO.Idx → EReal :=
  fun i => ∑ j : Fin 8192, wR x t (i 0) j * a (ix2 j (0 : Fin 1))

end Cert.Krr

end
-- ==== Proof.KHost.lean ====
/-
  What the host computes before the region, at the ideal values: the inputs divided by the length scale (`xs`, `ts`:
  the later change of float format is the identity), and the two scaled squared norms — entry `p` of the test side's
  column is `-½ · (0 + ∑ d, xs p d ²)`, entry `j` of the training side's row is `-½ · (0 + ∑ d, ts j d ²)` (a row
  sum, kept as a column, turned into a row) — and the dual weights unchanged.
-/
import proofs.«112491_j1632087572587_2_alg».proof.Proof.Gen.KernelIdeal.Frame
import proofs.«112491_j1632087572587_2_alg».proof.Proof.Final
import proofs.«112491_j1632087572587_2_alg».proof.Proof.LibHostRows
import proofs.«112491_j1632087572587_2_alg».proof.Proof.Spec
import proofs.«112491_j1632087572587_2_alg».proof.Proof.LibRowDots
import proofs.«112491_j1632087572587_2_alg».proof.Proof.LibRowOps
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.KernelIdeal.KValue
open Cert.KernelIdeal Cert.KernelIdeal.Gen Idealize.ShloMosaic.ValueIdx Idealize.ShloMosaic.StableHlo

variable (m : (ℓ : Loc nD τ sig) → Buf (Elt Ideal) ℓ)

/-- The test rows divided by the length scale. -/
def xsK (c : Dev nD) : FVec Ideal S16384x64 .f32 :=
  Host.divf (m ((c : Thread nD τ).loc main_arg0)) (broadcastInDim S16384x64 ![0, 1] bcast_S1x1_S16384x64_0_1
    (broadcastInDim S1x1 ![1] bcast_S1_S1x1_1 (m ((c : Thread nD τ).loc main_arg3))))
/-- The training rows divided by the length scale. -/
def tsK (c : Dev nD) : FVec Ideal S8192x64 .f32 :=
  Host.divf (m ((c : Thread nD τ).loc main_arg1)) (broadcastInDim S8192x64 ![0, 1] bcast_S1x1_S8192x64_0_1
    (broadcastInDim S1x1 ![1] bcast_S1_S1x1_1 (m ((c : Thread nD τ).loc main_arg3))))

theorem gX_eq (c : Dev nD) : gX m c = xsK m c := by
  have e : (V m c main_v17 : S16384x64.Idx → EReal) = truncf .bf16 (xsK m c) bitsLt_bf16_f32 := by
    dsimp only [Gen.V, Gen.hostOps0]; after_results; rfl
  exact e

theorem gT_eq (c : Dev nD) : gT m c = tsK m c := by
  have e : (V m c main_v18 : S8192x64.Idx → EReal) = truncf .bf16 (tsK m c) bitsLt_bf16_f32 := by
    dsimp only [Gen.V, Gen.hostOps0]; after_results; rfl
  exact e

theorem gA_eq (c : Dev nD) : gA m c = m ((c : Thread nD τ).loc main_arg2) := by
  have e : gA m c = (truncf .bf16 (m ((c : Thread nD τ).loc main_arg2) : FVec Ideal S8192x1 .f32) bitsLt_bf16_f32 : FVec Ideal S8192x1 .bf16) := by
    show (V m c main_v19 : S8192x1.Idx → EReal) = _
    dsimp only [Gen.V, Gen.hostOps0]; after_results
  exact e

theorem gNX_eq (c : Dev nD) : gNX m c = mulf (broadcastInDim S16384x1 ![] bcast_S_S16384x1 (constant (F := Ideal) S_ .f32 0xBF000000#32))
    (broadcastInDim S16384x1 ![0] bcast_S16384_S16384x1_0 (Host.reduceAdd (mulf (xsK m c) (xsK m c)) (constant (F := Ideal) S_ .f32 0x00000000#32) reducesTo_S16384x64_S16384_d1 h_S_)) := by
  show (V m c main_v14 : S16384x1.Idx → EReal) = _
  dsimp only [Gen.V, Gen.hostOps0]; after_results; rfl

theorem gNT_eq (c : Dev nD) : gNT m c = mulf (broadcastInDim S1x8192 ![] bcast_S_S1x8192 (constant (F := Ideal) S_ .f32 0xBF000000#32))
    (transpose S1x8192 [1, 0] (broadcastInDim S8192x1 ![0] bcast_S8192_S8192x1_0 (Host.reduceAdd (mulf (tsK m c) (tsK m c)) (constant (F := Ideal) S_ .f32 0x00000000#32) reducesTo_S8192x64_S8192_d1 h_S_)) transposes_S8192x1_S1x8192_1_0) := by
  show (V m c main_v16 : S1x8192.Idx → EReal) = _
  dsimp only [Gen.V, Gen.hostOps0]; after_results; rfl

/-- The test side's scaled squared norm at row `p`. -/
theorem gNX_apply (c : Dev nD) (p : Fin 16384) :
    gNX m c (ix2 p (0 : Fin 1)) = Cert.Krr.negHalf * Cert.Krr.normX (xsK m c) p := by
  rw [gNX_eq]
  show (broadcastInDim S16384x1 ![] bcast_S_S16384x1 (constant (F := Ideal) S_ .f32 0xBF000000#32)) (ix2 p (0 : Fin 1))
      * (broadcastInDim S16384x1 ![0] bcast_S16384_S16384x1_0 (Host.reduceAdd (mulf (xsK m c) (xsK m c)) (constant (F := Ideal) S_ .f32 0x00000000#32) reducesTo_S16384x64_S16384_d1 h_S_)) (ix2 p (0 : Fin 1)) = _
  rw [Idealize.ShloMosaic.RowOps.broadcastInDim_scalar_apply, Idealize.ShloMosaic.HostRows.broadcastInDim_a_a1_apply,
    Idealize.ShloMosaic.HostRows.hostRowSum_apply _ _ _ (by decide)]
  show Ideal.ofBits .f32 0xBF000000#32 * (Ideal.ofBits .f32 0x00000000#32 + ∑ k : Fin 64, xsK m c (ix2 p k) * xsK m c (ix2 p k)) = _
  rw [Ideal.ofBits_zero_f32, zero_add]
  rfl

/-- The training side's scaled squared norm at row `j`. -/
theorem gNT_apply (c : Dev nD) (j : Fin 8192) :
    gNT m c (ix2 (0 : Fin 1) j) = Cert.Krr.negHalf * Cert.Krr.normT (tsK m c) j := by
  rw [gNT_eq]
  show (broadcastInDim S1x8192 ![] bcast_S_S1x8192 (constant (F := Ideal) S_ .f32 0xBF000000#32)) (ix2 (0 : Fin 1) j)
      * (transpose S1x8192 [1, 0] (broadcastInDim S8192x1 ![0] bcast_S8192_S8192x1_0 (Host.reduceAdd (mulf (tsK m c) (tsK m c)) (constant (F := Ideal) S_ .f32 0x00000000#32) reducesTo_S8192x64_S8192_d1 h_S_)) transposes_S8192x1_S1x8192_1_0) (ix2 (0 : Fin 1) j) = _
  rw [Idealize.ShloMosaic.RowOps.broadcastInDim_scalar_apply, transpose_ix2_apply (a := 8192) (b := 1),
    Idealize.ShloMosaic.HostRows.broadcastInDim_a_a1_apply, Idealize.ShloMosaic.HostRows.hostRowSum_apply _ _ _ (by decide)]
  show Ideal.ofBits .f32 0xBF000000#32 * (Ideal.ofBits .f32 0x00000000#32 + ∑ k : Fin 64, tsK m c (ix2 j k) * tsK m c (ix2 j k)) = _
  rw [Ideal.ofBits_zero_f32, zero_add]
  rfl

/-- The kernel's output array is the regression over the weights with the exponential clamped, of the scaled rows. -/
theorem gOut_eq (c : Dev nD) :
    gOut (gX m c) (gT m c) (gNX m c) (gNT m c) (gA m c)
      = Cert.Krr.outK (xsK m c) (tsK m c) (m ((c : Thread nD τ).loc main_arg2)) := by
  funext i
  obtain ⟨p, q, rfl⟩ : ∃ (p : Fin 16384) (q : Fin 1), i = ix2 p q := ⟨i 0, i 1, eq_ix2 i⟩
  show ∑ j : Fin 8192, gW (gX m c) (gT m c) (gNX m c) (gNT m c) p j * gA m c (ix2 j (0 : Fin 1))
      = ∑ j : Fin 8192, Cert.Krr.wK (xsK m c) (tsK m c) p j * m ((c : Thread nD τ).loc main_arg2) (ix2 j (0 : Fin 1))
  refine Finset.sum_congr rfl fun j _ => ?_
  rw [gA_eq]
  refine congrArg (· * m ((c : Thread nD τ).loc main_arg2) (ix2 j (0 : Fin 1))) ?_
  unfold gW Cert.Krr.wK Cert.Krr.cross
  rw [gNX_apply, gNT_apply, gX_eq, gT_eq]
  rfl

end Cert.KernelIdeal.KValue
end
-- ==== Proof.RefValue.lean ====
/-
  The reference, read: its result at test row `p` is `∑ j, w p j · α j` with the weight whose squared distance is
  clamped, `w p j = exp (-½ · max ((n(x p) - 2 · (x p · t j)) + n(t j)) 0)`, over the inputs divided by the length scale
  — the row sums, the transposed product and the broadcasts read at an index, one operation at a time. Where the
  inputs are reals and the length scale a nonzero real, the scaled rows are reals: a quotient by a nonzero real is the
  product with its reciprocal.
-/
import proofs.«112491_j1632087572587_2_alg».proof.Proof.Gen.ReferenceIdeal.Read
import proofs.«112491_j1632087572587_2_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators

namespace Cert.ReferenceIdeal.RefValue
open Cert.ReferenceIdeal Cert.ReferenceIdeal.Gen Cert.ReferenceIdeal.Read Idealize.ShloMosaic.ValueIdx

variable (x0 : FVec Ideal S16384x64 .f32) (x1 : FVec Ideal S8192x64 .f32) (x2 : FVec Ideal S8192x1 .f32) (x3 : FVec Ideal S1 .f32)

/-- The reference's weight at `(p, k)`. -/
theorem weight_ref (p : Fin 16384) (k : Fin 8192) :
    val_main_v24 (F := Ideal) x0 x1 x3 (ix2 p k)
      = Cert.Krr.wR (val_main_v2 (F := Ideal) x0 x3) (val_main_v5 (F := Ideal) x1 x3) p k := by
  have e8 : idx_main_v8 (idx_main_v13 (ix2 p k)) = ix1 p := funext fun a => Fin.ext (by match a with | ⟨0, _⟩ => rfl)
  have e7 : ∀ d : Fin 64, idx_main_v7 (ix1 p) d = ix2 p d := fun d => funext fun a => Fin.ext (by match a with | ⟨0, _⟩ => rfl | ⟨1, _⟩ => rfl)
  have el : ∀ d : Fin 64, lidx_main_v10 (ix2 p k) d = ix2 p d := fun d => funext fun a => Fin.ext (by match a with | ⟨0, _⟩ => rfl | ⟨1, _⟩ => rfl)
  have er : ∀ d : Fin 64, idx_main_v9 (ridx_main_v10 (ix2 p k) d) = ix2 k d := fun d => funext fun a => Fin.ext (by match a with | ⟨0, _⟩ => rfl | ⟨1, _⟩ => rfl)
  have e17 : idx_main_v17 (idx_main_v18 (ix2 p k)) = ix1 k := funext fun a => Fin.ext (by match a with | ⟨0, _⟩ => rfl)
  have e16 : ∀ d : Fin 64, idx_main_v16 (ix1 k) d = ix2 k d := fun d => funext fun a => Fin.ext (by match a with | ⟨0, _⟩ => rfl | ⟨1, _⟩ => rfl)
  rw [val_main_v24_apply, val_main_v23_apply, val_main_v22_apply, val_main_cst_3_apply, val_main_v21_apply,
    val_main_v20_apply, val_main_cst_2_apply, val_main_v19_apply, val_main_v14_apply, val_main_v13_apply,
    val_main_v8_apply, e8, val_main_v7_apply, val_main_cst_apply, val_main_v12_apply, val_main_v11_apply,
    val_main_cst_0_apply, val_main_v10_apply, val_main_v18_apply, val_main_v17_apply, e17, val_main_v16_apply,
    val_main_cst_1_apply]
  simp only [val_main_v6_apply, val_main_v9_apply, val_main_v15_apply, e7, el, er, e16, Ideal.hostUnary_exp_def,
    Ideal.mulf_def, Ideal.maximumf_def, Ideal.addf_def, Ideal.subf_def, Ideal.ofBits_def, Ideal.ofBits_zero_f32, zero_add]
  rfl

/-- The reference's result is the regression over the weights with the squared distance clamped. -/
theorem result_eq :
    val_main_v25 (F := Ideal) x0 x1 x2 x3
      = Cert.Krr.outR (val_main_v2 (F := Ideal) x0 x3) (val_main_v5 (F := Ideal) x1 x3) x2 := by
  funext i
  obtain ⟨p, q, rfl⟩ : ∃ (p : Fin 16384) (q : Fin 1), i = ix2 p q := ⟨i 0, i 1, eq_ix2 i⟩
  obtain rfl : q = 0 := Subsingleton.elim _ _
  rw [val_main_v25_apply]
  unfold Cert.Krr.outR
  refine Finset.sum_congr rfl fun k _ => ?_
  have el : lidx_main_v25 (ix2 p (0 : Fin 1)) k = ix2 p k := funext fun a => Fin.ext (by match a with | ⟨0, _⟩ => rfl | ⟨1, _⟩ => rfl)
  have er : ridx_main_v25 (ix2 p (0 : Fin 1)) k = ix2 k (0 : Fin 1) := funext fun a => Fin.ext (by match a with | ⟨0, _⟩ => rfl | ⟨1, _⟩ => rfl)
  rw [el, er, weight_ref]

/-- A real divided by a nonzero real is a real: the scaled test rows. -/
theorem xs_real (h0 : ∀ i, ∃ r : ℝ, x0 i = r) (h3 : ∀ i, ∃ r : ℝ, r ≠ 0 ∧ x3 i = r) :
    ∀ i, ∃ r : ℝ, val_main_v2 (F := Ideal) x0 x3 i = r := by
  intro i
  obtain ⟨a, ha⟩ := h0 i
  obtain ⟨l, hl0, hl⟩ := h3 (idx_main_v0 (idx_main_v1 i))
  rw [val_main_v2_apply, val_main_v1_apply, val_main_v0_apply, ha, hl, Ideal.hostDivf_def, Ideal.div_coe hl0,
    ← EReal.coe_mul]
  exact ⟨_, rfl⟩

/-- The scaled training rows likewise. -/
theorem ts_real (h1 : ∀ i, ∃ r : ℝ, x1 i = r) (h3 : ∀ i, ∃ r : ℝ, r ≠ 0 ∧ x3 i = r) :
    ∀ i, ∃ r : ℝ, val_main_v5 (F := Ideal) x1 x3 i = r := by
  intro i
  obtain ⟨a, ha⟩ := h1 i
  obtain ⟨l, hl0, hl⟩ := h3 (idx_main_v3 (idx_main_v4 i))
  rw [val_main_v5_apply, val_main_v4_apply, val_main_v3_apply, ha, hl, Ideal.hostDivf_def, Ideal.div_coe hl0,
    ← EReal.coe_mul]
  exact ⟨_, rfl⟩

end Cert.ReferenceIdeal.RefValue
end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.KrrLaw.lean ====
/-
  The two spellings of the radial weight agree on real entries.

  With real entries the squared norms n(x), n(t) and the inner product c are reals. In the reals
      (c + -½ n(x)) + -½ n(t) = -½ ((n(x) - 2 c) + n(t)) =: -½ s,
  and min (exp (-½ s)) 1 = exp (-½ max s 0): for 0 ≤ s the exponent is nonpositive, so the exponential is at most 1 and
  max s 0 = s; for s < 0 the exponent is nonnegative, so the exponential is at least 1, and max s 0 = 0 with exp 0 = 1.
  The coercion of the reals into the extended reals carries sums, products, differences, max and min, and the
  exponential of a coercion is the coercion of the real exponential; so the identity transfers.
-/
import proofs.«112491_j1632087572587_2_alg».proof.Proof.Spec
import proofs.«112491_j1632087572587_2_alg».proof.Proof.LibFiniteEntries

noncomputable section

open scoped BigOperators

namespace Cert.Krr

open Idealize.ShloMosaic Idealize.ShloMosaic.ValueIdx

/-- The float -0.5 is the real -1/2. -/
theorem negHalf_eq : negHalf = ((-(1/2) : ℝ) : EReal) := by
  simp [negHalf, Ideal.ofBits, Ideal.ieee, -EReal.coe_mul]; norm_num

/-- The float 2.0 is the real 2. -/
theorem two_eq : two = ((2 : ℝ) : EReal) := by
  simp [two, Ideal.ofBits, Ideal.ieee, -EReal.coe_mul]; norm_num

/-- The float 1.0 is the real 1. -/
theorem one_eq : one = ((1 : ℝ) : EReal) := by
  simp [one, Ideal.ofBits, Ideal.ieee, -EReal.coe_mul]; norm_num

/-- In the reals: clamping the exponential at 1 is clamping the squared distance at 0. -/
theorem weight_real (A B c : ℝ) :
    min (Real.exp ((c + -(1/2) * A) + -(1/2) * B)) 1 = Real.exp (-(1/2) * max ((A - 2 * c) + B) 0) := by
  have he : (c + -(1/2) * A) + -(1/2) * B = -(1/2) * ((A - 2 * c) + B) := by ring
  rw [he]
  rcases le_total 0 ((A - 2 * c) + B) with h | h
  · rw [max_eq_left h]
    exact min_eq_left (Real.exp_le_one_iff.mpr (by linarith))
  · rw [max_eq_right h, mul_zero, Real.exp_zero]
    exact min_eq_right (Real.one_le_exp (by linarith))

/-- The same on coercions of reals into the extended reals. -/
theorem weight_coe (A B c : ℝ) :
    min (Ideal.exp (((c : EReal) + negHalf * (A : EReal)) + negHalf * (B : EReal))) one
      = Ideal.exp (negHalf * max (((A : EReal) - two * (c : EReal)) + (B : EReal)) 0) := by
  rw [negHalf_eq, two_eq, one_eq, ← EReal.coe_zero, ← EReal.coe_mul, ← EReal.coe_mul, ← EReal.coe_mul,
    ← EReal.coe_add, ← EReal.coe_add, ← EReal.coe_sub, ← EReal.coe_add,
    ← EReal.coe_strictMono.monotone.map_max, ← EReal.coe_mul, Ideal.exp_coe, Ideal.exp_coe,
    ← EReal.coe_strictMono.monotone.map_min, weight_real]

/-- A squared norm of real entries is a real. -/
theorem sum_sq_coe (f : Fin 64 → ℝ) :
    (∑ d : Fin 64, (f d : EReal) * (f d : EReal)) = ((∑ d : Fin 64, f d * f d : ℝ) : EReal) := by
  rw [Idealize.ShloMosaic.FiniteEntries.coe_sum]
  exact Finset.sum_congr rfl fun d _ => (EReal.coe_mul _ _).symm

/-- An inner product of real entries is a real. -/
theorem sum_mul_coe (f g : Fin 64 → ℝ) :
    (∑ d : Fin 64, (f d : EReal) * (g d : EReal)) = ((∑ d : Fin 64, f d * g d : ℝ) : EReal) := by
  rw [Idealize.ShloMosaic.FiniteEntries.coe_sum]
  exact Finset.sum_congr rfl fun d _ => (EReal.coe_mul _ _).symm

/-- On real entries the two weights agree. -/
theorem wK_eq_wR (x : SX.Idx → EReal) (t : ST.Idx → EReal) (hx : ∀ i, ∃ r : ℝ, x i = r)
    (ht : ∀ i, ∃ r : ℝ, t i = r) (p : Fin 16384) (j : Fin 8192) : wK x t p j = wR x t p j := by
  choose xr hxr using hx
  choose tr htr using ht
  have hnx : normX x p = ((∑ d : Fin 64, xr (ix2 p d) * xr (ix2 p d) : ℝ) : EReal) := by
    rw [← sum_sq_coe]; exact Finset.sum_congr rfl fun d _ => by rw [hxr]
  have hnt : normT t j = ((∑ d : Fin 64, tr (ix2 j d) * tr (ix2 j d) : ℝ) : EReal) := by
    rw [← sum_sq_coe]; exact Finset.sum_congr rfl fun d _ => by rw [htr]
  have hc : cross x t p j = ((∑ d : Fin 64, xr (ix2 p d) * tr (ix2 j d) : ℝ) : EReal) := by
    rw [← sum_mul_coe]; exact Finset.sum_congr rfl fun d _ => by rw [hxr, htr]
  rw [wK, wR, hnx, hnt, hc]
  exact weight_coe _ _ _

/-- On real entries the two regressions agree. -/
theorem outK_eq_outR (x : SX.Idx → EReal) (t : ST.Idx → EReal) (a : SA.Idx → EReal)
    (hx : ∀ i, ∃ r : ℝ, x i = r) (ht : ∀ i, ∃ r : ℝ, t i = r) : outK x t a = outR x t a := by
  funext i
  exact Finset.sum_congr rfl fun j _ => congrArg (· * a (ix2 j (0 : Fin 1))) (wK_eq_wR x t hx ht (i 0) j)

end Cert.Krr

end
-- ==== Proof.Finite.lean ====
/-
  The precondition decoded: every entry of the four float inputs is a real number, and every entry of the
  length scale (the fourth input) is a nonzero real.

  The precondition is a conjunction of five reductions by `and`: four of the shape `all (|a| < +∞)`, one per input,
  and `all (a₃ ≠ 0)`. Each of the first four being true makes every entry of that input a real; the last
  being true makes every entry of the fourth input different from the extended real 0, hence a nonzero real.
-/
import proofs.«112491_j1632087572587_2_alg».proof.Pre_finite_inputs
import proofs.«112491_j1632087572587_2_alg».proof.Proof.LibFiniteEntries
import Idealize.ShloMosaic.Lib.ReduceAll
import Idealize.ShloMosaic.Lib.ValueIdx

noncomputable section

namespace Cert.Krr

open Idealize.ShloMosaic Idealize.ShloMosaic.ValueIdx Cert.Pre_finite_inputs

variable [Cert.Pre_finite_inputs.Facts]

/-- An extended real that compares different from the float `0` is different from `0`. -/
theorem ne_zero_of_cmp_une (x : EReal) (h : Ideal.cmp .une x (Ideal.ofBits .f32 0x00000000#32) = 1#1) : x ≠ 0 := by
  rw [Ideal.ofBits_zero_f32] at h
  unfold Ideal.cmp at h
  intro hx
  subst hx
  simp at h

/-- The precondition being true: the entries of the first three inputs are reals, those of the fourth nonzero reals. -/
theorem inputs_real (a0 : FVec Ideal Cert.Pre_finite_inputs.S16384x64 .f32) (a1 : FVec Ideal Cert.Pre_finite_inputs.S8192x64 .f32)
    (a2 : FVec Ideal Cert.Pre_finite_inputs.S8192x1 .f32) (a3 : FVec Ideal Cert.Pre_finite_inputs.S1 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧
      (∀ i, ∃ r : ℝ, r ≠ 0 ∧ a3 i = r) := by
  have h0 := congrFun h ix0
  unfold Cert.Pre_finite_inputs.fn Cert.Pre_finite_inputs.fn_part1 at h0
  dsimp only at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  have r3 : ∀ i, ∃ r : ℝ, a3 i = r :=
    FiniteEntries.real_of_all a3 Facts.bcast_S_S1 Facts.reducesTo_S1_S_d0 Facts.h_S_ _ h4
  refine ⟨FiniteEntries.real_of_all a0 Facts.bcast_S_S16384x64 Facts.reducesTo_S16384x64_S_d0_1 Facts.h_S_ _ h1,
    FiniteEntries.real_of_all a1 Facts.bcast_S_S8192x64 Facts.reducesTo_S8192x64_S_d0_1 Facts.h_S_ _ h2,
    FiniteEntries.real_of_all a2 Facts.bcast_S_S8192x1 Facts.reducesTo_S8192x1_S_d0_1 Facts.h_S_ _ h3, fun i => ?_⟩
  obtain ⟨r, hr⟩ := r3 i
  have hi := Host.reduce_andi_all _ _ Facts.reducesTo_S1_S_d0 Facts.h_S_ ix0 h5 i
  rw [cmpf_apply, broadcastInDim_apply ![] Facts.bcast_S_S1 _ i ix0 fun d => d.elim0] at hi
  have hne : a3 i ≠ 0 := ne_zero_of_cmp_une (a3 i) hi
  refine ⟨r, fun hr0 => hne ?_, hr⟩
  rw [hr, hr0, EReal.coe_zero]

end Cert.Krr

end
-- ==== Proof.Claims.lean ====
/-
  The five claims. The frames are the generated ones (the reference's is its run with the result dropped), nothing was
  rewritten by the idealization, and the two idealized programs agree: the kernel's output array is the regression
  over the weights `min (exp (c - ½ n(x) - ½ n(t))) 1`, the reference's the regression over
  `exp (-½ max (n(x) - 2c + n(t)) 0)`, both of the inputs divided by the length scale; the precondition makes the
  inputs reals and the length scale a nonzero real, so the scaled rows are reals, and on reals the two weights are
  one number.
-/
import proofs.«112491_j1632087572587_2_alg».proof.Defs
import proofs.«112491_j1632087572587_2_alg».proof.Proof.Gen.Kernel
import proofs.«112491_j1632087572587_2_alg».proof.Proof.Gen.Kernel.Frame
import proofs.«112491_j1632087572587_2_alg».proof.Proof.Gen.KernelIdeal
import proofs.«112491_j1632087572587_2_alg».proof.Proof.Gen.KernelIdeal.Frame
import proofs.«112491_j1632087572587_2_alg».proof.Proof.Gen.KernelIdeal.Value
import proofs.«112491_j1632087572587_2_alg».proof.Proof.Gen.ReferenceIdeal
import proofs.«112491_j1632087572587_2_alg».proof.Proof.Gen.ReferenceIdeal.Run
import proofs.«112491_j1632087572587_2_alg».proof.Proof.Gen.ReferenceIdeal.Read
import proofs.«112491_j1632087572587_2_alg».proof.Proof.Gen.Pre_finite_inputs
import proofs.«112491_j1632087572587_2_alg».proof.Proof.KHost
import proofs.«112491_j1632087572587_2_alg».proof.Proof.RefValue
import proofs.«112491_j1632087572587_2_alg».proof.Proof.KrrLaw
import proofs.«112491_j1632087572587_2_alg».proof.Proof.Finite

set_option maxRecDepth 16384

noncomputable section

open Idealize.ShloMosaic Idealize.ShloMosaic.TcCoe Idealize.SL.Sem
open Idealize.ShloMosaic.Pipeline (Dat)

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.Krr.outK (Cert.KernelIdeal.KValue.xsK m c) (Cert.KernelIdeal.KValue.tsK m c)
    (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.KValue.gOut_eq m c), (h c).2⟩) (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, Cert.ReferenceIdeal.RefValue.result_eq, (hagree c).1, (hagree c).2.1,
      (hagree c).2.2.1, (hagree c).2.2.2]
    obtain ⟨r0, r1, r2, r3⟩ := Cert.Krr.inputs_real _ _ _ _ (hpre c)
    exact (Cert.Krr.outK_eq_outR _ _ _ (Cert.ReferenceIdeal.RefValue.xs_real _ _ r0 r3)
      (Cert.ReferenceIdeal.RefValue.ts_real _ _ r1 r3)).symm

end Cert.Proof.Claims
end
-- ==== Proof.lean ====
/- Kernel ridge regression with a radial kernel, applied to test points: both programs compute, for every test row p,
   the sum over the training rows j of exp (-‖x p - t j‖² / 2) · α j, where x and t are the inputs divided by the length
   scale. The kernel expands the squared distance and clamps the exponential at 1, accumulating over tiles of training
   rows; the reference clamps the squared distance at 0. The five claims are proved in Proof/Claims.lean. -/
import proofs.«112491_j1632087572587_2_alg».proof.Defs
import proofs.«112491_j1632087572587_2_alg».proof.Proof.Claims
import proofs.«112491_j1632087572587_2_alg».proof.Proof.Gen.Kernel
import proofs.«112491_j1632087572587_2_alg».proof.Proof.Gen.KernelIdeal
import proofs.«112491_j1632087572587_2_alg».proof.Proof.Gen.ReferenceIdeal
import proofs.«112491_j1632087572587_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
